-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S100000x512 .f32) (main_arg1 : IVec S2x3200000 32) (main_arg2 : FVec F S512x16 .f32) (main_arg3 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S4000x512 : Shape := ⟨2, ![4000, 512]⟩
abbrev S4000x1 : Shape := ⟨2, ![4000, 1]⟩
abbrev S4000x16 : Shape := ⟨2, ![4000, 16]⟩
abbrev S3300000x16 : Shape := ⟨2, ![3300000, 16]⟩
abbrev S1x16 : Shape := ⟨2, ![1, 16]⟩

abbrev nBuf : Space → Nat
  | .hbm => 46
  | .vmem => 7
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S100000, .i32⟩
  | .hbm, ⟨5, _⟩ => ⟨S1x3200000, .i32⟩
  | .hbm, ⟨6, _⟩ => ⟨S3200000, .i32⟩
  | .hbm, ⟨7, _⟩ => ⟨S3300000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S_, .f32⟩
  | .hbm, ⟨12, _⟩ => ⟨S3300000, .f32⟩
  | .hbm, ⟨13, _⟩ => ⟨S_, .f32⟩
  | .hbm, ⟨14, _⟩ => ⟨S100000, .f32⟩
  | .hbm, ⟨15, _⟩ => ⟨S3300000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x16, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000x16, .f32⟩
  | .hbm, ⟨36, _⟩ => ⟨S_, .f32⟩
  | .hbm, ⟨37, _⟩ => ⟨S100000x16, .f32⟩
  | .hbm, ⟨38, _⟩ => ⟨S3300000x1, .i32⟩
  | .hbm, ⟨39, _⟩ => ⟨S100000x16, .f32⟩
  | .hbm, ⟨40, _⟩ => ⟨S100000x1, .f32⟩
  | .hbm, ⟨41, _⟩ => ⟨S100000x16, .f32⟩
  | .hbm, ⟨42, _⟩ => ⟨S100000x16, .f32⟩
  | .hbm, ⟨43, _⟩ => ⟨S1x16, .f32⟩
  | .hbm, ⟨44, _⟩ => ⟨S100000x16, .f32⟩
  | .hbm, ⟨45, _⟩ => ⟨S100000x16, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x1, .f32⟩
  | .local _ .vmem, ⟨4, _⟩ => ⟨S4000x1, .f32⟩
  | .local _ .vmem, ⟨5, _⟩ => ⟨S4000x16, .f32⟩
  | .local _ .vmem, ⟨6, _⟩ => ⟨S4000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  inb_S4000x16_S4000x16_0_0 : ∀ a, (![0, 0] : Fin 2 → Nat) a + S4000x16.size a ≤ S4000x16.size a
  h_S4000x16 : 0 < S4000x16.numel
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x16.size a ≤ S100000x16.size a
  hwx0_3 : ∀ i : grid0.Coords, EltTy.bits .f32 = 32 ∨ (Rect.block (s := S100000x16) S4000x16.size (cc0_transform_3 i) (hinb0_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩

abbrev nBuf : Space → Nat
  | .hbm => 64
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S100000, .i32⟩
  | .hbm, ⟨5, _⟩ => ⟨S1x3200000, .i32⟩
  | .hbm, ⟨6, _⟩ => ⟨S3200000, .i32⟩
  | .hbm, ⟨7, _⟩ => ⟨S3300000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S_, .f32⟩
  | .hbm, ⟨12, _⟩ => ⟨S3300000, .f32⟩
  | .hbm, ⟨13, _⟩ => ⟨S_, .f32⟩
  | .hbm, ⟨14, _⟩ => ⟨S100000, .f32⟩
  | .hbm, ⟨15, _⟩ => ⟨S3300000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S100000x16, .f32⟩
  | .hbm, ⟨45, _⟩ => ⟨S3300000x1, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x16, .f32⟩
  | .hbm, ⟨55, _⟩ => ⟨S3300000x16, .f32⟩
  | .hbm, ⟨56, _⟩ => ⟨S3300000x16, .f32⟩
  | .hbm, ⟨57, _⟩ => ⟨S_, .f32⟩
  | .hbm, ⟨58, _⟩ => ⟨S100000x16, .f32⟩
  | .hbm, ⟨59, _⟩ => ⟨S3300000x1, .i32⟩
  | .hbm, ⟨60, _⟩ => ⟨S100000x16, .f32⟩
  | .hbm, ⟨61, _⟩ => ⟨S1x16, .f32⟩
  | .hbm, ⟨62, _⟩ => ⟨S100000x16, .f32⟩
  | .hbm, ⟨63, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.Spec.lean ====
/-
  One layer of graph convolution with symmetric normalisation, as a function of its four arguments.

  The arguments: node features `x : [100000, 512]`, an edge list `ei : [2, 3200000]` of 32-bit integers
  (row 0 the sources, row 1 the targets), weights `W : [512, 16]` and a bias `b : [16]`.

  * `srcs ei`, `tgts ei : [3300000]`: the sources (targets) of the edges followed by the self-loops 0 … 99999.
  * `wrap v`: a negative entry moved up by 100000 (how an array index is normalised before a gather).
  * `deg ei : [100000]`: at node c, zero plus a one for every list position whose TARGET, read signed and not
    clamped, is c (the accumulating scatter drops a position whose target is outside [0, 100000)).
  * `dinv ei`: `deg^(-1/2)` where the degree is positive, zero elsewhere.
  * `xw x W = x · W : [100000, 16]`.
  * `refOut`: the reference arrangement — position e carries `(dinv[src e] · dinv[tgt e]) · xw[src e, :]` (the
    gathers clamp their normalised index into [0, 99999]), positions are accumulated at their raw target, the
    bias is added.
  * `kerOutOf P`: the kernel's arrangement over a table `P : [100000, 16]` — position e carries `P[src e, :]`,
    positions are accumulated at their raw target, row c of the sum is multiplied by `dinv[c]`, the bias is
    added; `scaled x ei W` is the table the kernel builds, `xw[r, :] · dinv[r]`, and `kerOut` is `kerOutOf` of it.

  Everything but `scaled` is stated for any float instance; `scaled` is stated on the extended reals.
-/
import Idealize.ShloMosaic.PureOps.Ideal
import Idealize.ShloMosaic.Lib.ValueIdx

noncomputable section

namespace Cert.Spec

open Idealize.ShloMosaic Idealize.ShloMosaic.ValueIdx

abbrev SX : Shape := ⟨2, ![100000, 512]⟩
abbrev SEI : Shape := ⟨2, ![2, 3200000]⟩
abbrev SW : Shape := ⟨2, ![512, 16]⟩
abbrev SB : Shape := ⟨1, ![16]⟩
abbrev SN : Shape := ⟨1, ![100000]⟩
abbrev S1E : Shape := ⟨2, ![1, 3200000]⟩
abbrev SE0 : Shape := ⟨1, ![3200000]⟩
abbrev SE : Shape := ⟨1, ![3300000]⟩
abbrev S0 : Shape := ⟨0, ![]⟩
abbrev SE1 : Shape := ⟨2, ![3300000, 1]⟩
abbrev SN1 : Shape := ⟨2, ![100000, 1]⟩
abbrev SNH : Shape := ⟨2, ![100000, 16]⟩
abbrev SEH : Shape := ⟨2, ![3300000, 16]⟩
abbrev S1H : Shape := ⟨2, ![1, 16]⟩

/-- The accumulating scatter of a flat update list into a flat array: one index per update. -/
def scat1 : ScatterDims SN SE1 SE where
  updateWindowDims := []
  insertedWindowDims := [0]
  scatterDimsToOperandDims := [0]
  indexVectorDim := 1
  wf := by decide
/-- The accumulating scatter of rows of 16 into a [100000, 16] array: one row index per update row. -/
def scat2 : ScatterDims SNH SE1 SEH where
  updateWindowDims := [1]
  insertedWindowDims := [0]
  scatterDimsToOperandDims := [0]
  indexVectorDim := 1
  wf := by decide
/-- The gather of single entries of a flat array. -/
def gat1 : GatherDims SN SE1 SE where
  offsetDims := []
  collapsedSliceDims := [0]
  operandBatchingDims := []
  startIndicesBatchingDims := []
  startIndexMap := [0]
  indexVectorDim := 1
  sliceSizes := ![1]
  wf := by decide
/-- The gather of whole rows of a [100000, 16] array. -/
def gat2 : GatherDims SNH SE1 SEH where
  offsetDims := [1]
  collapsedSliceDims := [0]
  operandBatchingDims := []
  startIndicesBatchingDims := []
  startIndexMap := [0]
  indexVectorDim := 1
  sliceSizes := ![1, 16]
  wf := by decide
/-- The dimension numbers of `x · W`. -/
def dotXW : DotDims SX SW SNH where
  lhsContracting := [1]
  rhsContracting := [0]
  lhsNonContracting := [0]
  rhsNonContracting := [1]
  lhsBatch := []
  rhsBatch := []
  wf := by decide

variable {F : FTy → Type} [FloatOps F]

/-- Row `r` of the edge list followed by the self-loops. -/
def srcs (ei : IVec SEI 32) : IVec SE 32 :=
  concatenate SE 0 [⟨SE0, shapeCast SE0 (extractStridedSlice S1E ![0, 0] ei (by decide)) (by decide)⟩, ⟨SN, iotaInDim SN 32 0⟩] (by decide : Shape.Concatenates [SE0, SN] SE 0)
def tgts (ei : IVec SEI 32) : IVec SE 32 :=
  concatenate SE 0 [⟨SE0, shapeCast SE0 (extractStridedSlice S1E ![1, 0] ei (by decide)) (by decide)⟩, ⟨SN, iotaInDim SN 32 0⟩] (by decide : Shape.Concatenates [SE0, SN] SE 0)

/-- A negative index moved up by the number of nodes. -/
def wrap (v : IVec SE 32) : IVec SE 32 :=
  select (cmpi .slt v (broadcastInDim SE ![] (by decide) (constantI S0 32 0#32)))
    (addi v (broadcastInDim SE ![] (by decide) (constantI S0 32 100000#32))) v

/-- A list as the one-column index array a gather or a scatter reads. -/
def col (v : IVec SE 32) : IVec SE1 32 := broadcastInDim SE1 ![0] (by decide) v

def deg (ei : IVec SEI 32) : FVec F SN .f32 :=
  Host.scatterAdd scat1 (broadcastInDim SN ![] (by decide) (constant S0 .f32 0x00000000#32)) (col (tgts ei))
    (broadcastInDim SE ![] (by decide) (constant S0 .f32 0x3F800000#32))

def dinv (ei : IVec SEI 32) : FVec F SN .f32 :=
  select (cmpf .ogt (deg (F := F) ei) (broadcastInDim SN ![] (by decide) (constant S0 .f32 0x00000000#32)))
    (Host.rsqrt (deg (F := F) ei)) (broadcastInDim SN ![] (by decide) (constant S0 .f32 0x00000000#32))

def xw (x : FVec F SX .f32) (W : FVec F SW .f32) : FVec F SNH .f32 := Host.dotGeneral dotXW none x W

/-- The bias as a [100000, 16] array. -/
def bias (b : FVec F SB .f32) : FVec F SNH .f32 :=
  broadcastInDim SNH ![0, 1] (by decide) (broadcastInDim S1H ![1] (by decide) b)

/-- The per-position weight `dinv[src] · dinv[tgt]`. -/
def norm (ei : IVec SEI 32) : FVec F SE .f32 :=
  mulf (Host.gather gat1 (dinv (F := F) ei) (col (wrap (srcs ei)))) (Host.gather gat1 (dinv (F := F) ei) (col (wrap (tgts ei))))

/-- The reference arrangement. -/
def refOut (x : FVec F SX .f32) (ei : IVec SEI 32) (W : FVec F SW .f32) (b : FVec F SB .f32) : FVec F SNH .f32 :=
  addf
    (Host.scatterAdd scat2 (broadcastInDim SNH ![] (by decide) (constant S0 .f32 0x00000000#32)) (col (tgts ei))
      (mulf (broadcastInDim SEH ![0, 1] (by decide) (broadcastInDim SE1 ![0] (by decide) (norm (F := F) ei)))
        (Host.gather gat2 (xw x W) (col (wrap (srcs ei))))))
    (bias b)

/-- The kernel's arrangement over a table `P`. -/
def kerOutOf (P : FVec F SNH .f32) (ei : IVec SEI 32) (b : FVec F SB .f32) : FVec F SNH .f32 :=
  addf
    (mulf (broadcastInDim SNH ![0, 1] (by decide) (broadcastInDim SN1 ![0] (by decide) (dinv (F := F) ei)))
      (Host.scatterAdd scat2 (broadcastInDim SNH ![] (by decide) (constant S0 .f32 0x00000000#32)) (col (tgts ei))
        (Host.gather gat2 P (col (wrap (srcs ei))))))
    (bias b)

/-- The table the kernel builds, on the extended reals: `(x · W)[r, h] · dinv[r]`. -/
def scaled (x : FVec Ideal SX .f32) (ei : IVec SEI 32) (W : FVec Ideal SW .f32) : FVec Ideal SNH .f32 :=
  fun i => (∑ k : Fin 512, x (ix2 (i 0) k) * W (ix2 k (i 1))) * dinv (F := Ideal) ei (ix1 (i 0))

def kerOut (x : FVec Ideal SX .f32) (ei : IVec SEI 32) (W : FVec Ideal SW .f32) (b : FVec Ideal SB .f32) :
    FVec Ideal SNH .f32 :=
  kerOutOf (scaled x ei W) ei b

end Cert.Spec

end
-- ==== Proof.RefRun.lean ====
/-
  The reference program's straight line of sixty array operations, run to its end.

  The operations, in order: the node numbers 0 … 99999; rows 0 and 1 of the edge list, each flattened and followed
  by the node numbers (the sources and the targets with the self-loops appended); the degree (a one accumulated at
  every target); its inverse square root where the degree is positive and zero elsewhere; the three index lists
  with a negative entry moved up by 100000; the two gathers of the inverse square root and their product; the
  product of the features with the weights; the gather of its rows; the rows scaled and accumulated at the
  targets; the bias added.

  `run`: every execution ends with the result buffer holding `Spec.refOut` of the four arguments' initial contents,
  and the four arguments unchanged.
-/
import proofs.«177567_j19928648253614_2_alg».proof.Proof.Gen.ReferenceIdeal
import Idealize.ShloMosaic.Lib.StableHlo.Run
import proofs.«177567_j19928648253614_2_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The sixty operations, in order; the three operations of the select that zeroes the inverse square root where the
    degree is not positive (a copy of the scalar zero, its broadcast, the select) stand at positions 19–21. -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)),
    binary main_arg0 main_arg2 main_v30 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    unary main_v29 main_v31 (broadcastInDim S3300000x1 ![0] bcast_S3300000_S3300000x1_0 : (⟨S3300000, .f32⟩ : BufTy).Contents (Elt F) → (⟨S3300000x1, .f32⟩ : BufTy).Contents (Elt F)),
    nullary main_c_6 (constantI S_ 32 0#32),
    unary main_c_6 main_v32 (broadcastInDim S3300000 ![] bcast_S_S3300000 : (⟨S_, .i32⟩ : BufTy).Contents (Elt F) → (⟨S3300000, .i32⟩ : BufTy).Contents (Elt F)),
    binary main_v3 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v34 (broadcastInDim S3300000 ![] bcast_S_S3300000 : (⟨S_, .i32⟩ : BufTy).Contents (Elt F) → (⟨S3300000, .i32⟩ : BufTy).Contents (Elt F)),
    binary main_v3 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v3 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v30 main_v37 main_v38 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v38 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
set_option maxHeartbeats 2000000 in
/-- From any initial contents with zero counters every execution of the program terminates; at its end the result
    buffer holds `Spec.refOut` of the arguments' initial contents and the arguments hold what they held. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
          = (Cert.Spec.refOut (F := F) (m ((c.tc : Thread nD τ).loc main_arg0)) (m ((c.tc : Thread nD τ).loc main_arg1))
              (m ((c.tc : Thread nD τ).loc main_arg2)) (m ((c.tc : Thread nD τ).loc main_arg3))
              : Buf (Elt F) ((c.tc : Thread nD τ).loc main_v46))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v46).trans (by after_results_simp; rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefRun

end
-- ==== Proof.KerHost.lean ====
/-
  The kernel program's host operations before its one region, at any float instance: what they leave in the
  buffers the region and the later operations read.

  With `E` the edge list the program was launched with (its second argument):
  * buffer `main_v3` holds the sources followed by the self-loops, `Spec.srcs E`;
  * buffer `main_v6` holds the targets followed by the self-loops, `Spec.tgts E`;
  * buffer `main_v14` holds the inverse square root of the degrees (zero where the degree is zero), `Spec.dinv E`;
  * buffer `main_v15` holds the same numbers as one column [100000, 1]: entry `(r, 0)` is entry `r` of `dinv`.

  Each buffer's contents is the composition of the operations that wrote it, unfolded from the launch memory; the
  specification's terms are these compositions with their sub-terms named.
-/
import proofs.«177567_j19928648253614_2_alg».proof.Proof.Gen.KernelIdeal.Frame
import proofs.«177567_j19928648253614_2_alg».proof.Proof.Spec
import Idealize.ShloMosaic.Lib.Pipeline.Value

noncomputable section

namespace Cert.KernelIdeal.KerHost

open Idealize.ShloMosaic Idealize.ShloMosaic.TcCoe Idealize.ShloMosaic.ValueIdx
open Idealize.SL.Sem
open Cert.KernelIdeal Cert.KernelIdeal.Gen

variable {F : FTy → Type} [FloatOps F]
variable (m : (ℓ : Loc nD τ sig) → Buf (Elt F) ℓ) (c : Dev nD)

/-- The sources followed by the self-loops. -/
theorem V_srcs : (Gen.V m c main_v3 : IVec Cert.Spec.SE 32) = Cert.Spec.srcs (m ((c.tc : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results_simp
  rfl

/-- The targets followed by the self-loops. -/
theorem V_tgts : (Gen.V m c main_v6 : IVec Cert.Spec.SE 32) = Cert.Spec.tgts (m ((c.tc : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results_simp
  rfl

/-- The inverse square roots of the degrees. -/
theorem V_dinv : (Gen.V m c main_v14 : FVec F Cert.Spec.SN .f32) = Cert.Spec.dinv (F := F) (m ((c.tc : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results_simp
  rfl

/-- The same as one column. -/
theorem V_dinvCol : (Gen.V m c main_v15 : FVec F Cert.Spec.SN1 .f32)
    = shapeCast Cert.Spec.SN1 (Cert.Spec.dinv (F := F) (m ((c.tc : Thread nD τ).loc main_arg1))) (by decide) := by
  dsimp only [Gen.V, Gen.V0]
  simp only [Gen.hostOps0, Gen.hostOps0_1, Gen.hostOps0_2, List.flatten_cons, List.flatten_nil, List.append_nil, List.cons_append, List.nil_append]
  after_results_simp
  rfl

/-- Entry `(r, 0)` of the column is entry `r` of the list: the two indices have the same row-major position `r`. -/
theorem V_dinvCol_apply (r : Fin 100000) :
    (Gen.V m c main_v15 : FVec F Cert.Spec.SN1 .f32) (ix2 r 0) = Cert.Spec.dinv (F := F) (m ((c.tc : Thread nD τ).loc main_arg1)) (ix1 r) := by
  rw [V_dinvCol]
  refine shapeCast_apply _ _ (ix2 r 0) (ix1 r) ?_
  rw [Shape.rowMajor_val_two, Shape.rowMajor_val_one]
  show r.val = r.val * 1 + 0
  omega

end Cert.KernelIdeal.KerHost

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.KerPay.lean ====
/-
  The arithmetic of one grid step, read at an entry.

  A step holds a block of 4000 rows of the features `x` ([4000, 512]), the whole weight matrix `W`
  ([512, 16]) and the matching 4000 entries of a column `s` ([4000, 1]). It rounds `x` and `W` to a
  narrower float format (no change on the extended reals), multiplies them into a zero accumulator, and
  multiplies row p of the product by the column's entry p (the column reshaped to its own shape and
  repeated along the 16 output columns). So entry (p, q) of what it stores is
  (sum over k < 512 of x[p, k] * W[k, q]) * s[p, 0].
-/
import proofs.«177567_j19928648253614_2_alg».proof.Proof.Gen.KernelIdeal.Skeleton
import proofs.«177567_j19928648253614_2_alg».proof.Proof.LibDot
import Idealize.ShloMosaic.Lib.ValueIdx
import Idealize.ShloMosaic.Lib.Pipeline.Value

noncomputable section

namespace Cert.KernelIdeal.KerPay

open Idealize.ShloMosaic Idealize.ShloMosaic.ValueIdx
open Cert.KernelIdeal Cert.KernelIdeal.Gen

/-- The step's product contracts axis 1 of the left operand with axis 0 of the right one and keeps the
    other two axes in order: a plain rows-by-columns product. -/
theorem plain : Cert.LibDot.Plain dot_S4000x512_S512x16_S4000x16_1_0_0_1_n_n where
  hrank := rfl
  hs := rfl
  hl0 := fun _ _ => rfl
  hl1 := fun j k => DotDims.lhsIdx_val_of_single (d := dot_S4000x512_S512x16_S4000x16_1_0_0_1_n_n) (cl := 1) rfl j k
  hr0 := fun j k => DotDims.rhsIdx_val_of_single (d := dot_S4000x512_S512x16_S4000x16_1_0_0_1_n_n) (cr := 0) rfl j k
  hr1 := fun _ _ => rfl

/-- A column [4000, 1] repeated along 16 columns reads, at (p, q), the column's entry (p, 0). -/
theorem broadcast_col (s : FVec Ideal S4000x1 .f32) (h : S4000x1.Broadcasts S4000x16) (p : Fin 4000) (q : Fin 16) :
    broadcastTo S4000x16 s h (ix2 p q) = s (ix2 p 0) :=
  broadcastTo_apply s h (ix2 p q) (ix2 p 0) fun a => by
    match a with
    | ⟨0, _⟩ => rfl
    | ⟨1, _⟩ => rfl

/-- Entry (p, q) of what a step stores: row p of the block times column q of the weights, times the
    column's entry p. -/
theorem pay_apply (x0 : Vec Ideal S4000x512 .f32) (x1 : Vec Ideal S512x16 .f32) (x2 : Vec Ideal S4000x1 .f32)
    (p : Fin 4000) (q : Fin 16) :
    k0_pay1 x0 x1 x2 (ix2 p q) = (∑ k : Fin 512, x0 (ix2 p k) * x1 (ix2 k q)) * x2 (ix2 p 0) := by
  unfold k0_pay1
  refine (mulf_apply _ _ (ix2 p q)).trans ?_
  refine congrArg₂ (· * ·) ?_ ?_
  · refine (Cert.LibDot.matmul_ix2 plain none _ _ p q).trans ?_
    rfl
  · refine (broadcast_col _ _ p q).trans ?_
    exact congrFun (shapeCast_self x2 _) (ix2 p 0)

end Cert.KernelIdeal.KerPay

end
-- ==== Proof.KerTable.lean ====
/-
  From the blocks to the array: what the 25 grid steps together leave in the output array.

  Step t holds rows 4000·t … 4000·t + 3999 of the features, the whole weight matrix, and entries
  4000·t … 4000·t + 3999 of a column computed before the steps begin; it writes rows
  4000·t … 4000·t + 3999 of the output. Row p of a step's block is row 4000·t + p of the array, so by the
  entry formula of a step, entry (r, h) of the output ends as
  (sum over k < 512 of x[r, k] · W[k, h]) · s[r, 0]
  where s is the column. The 25 row blocks cover the 100000 rows (row r is in block r / 4000), so this
  describes the whole array.
-/
import proofs.«177567_j19928648253614_2_alg».proof.Proof.Gen.KernelIdeal.Frame
import proofs.«177567_j19928648253614_2_alg».proof.Proof.KerPay
import proofs.«177567_j19928648253614_2_alg».proof.Proof.Spec
import Idealize.ShloMosaic.Lib.Pipeline.Value
import Idealize.ShloMosaic.Lib.ValueIdx

noncomputable section

namespace Cert.KernelIdeal.KerTable

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem zeros : (![0, 0] : Fin 2 → Nat) = fun _ => 0 := funext fun a => by fin_cases a <;> rfl

/-- The table as one function of three arrays: features, weights and the column. -/
abbrev tab (a0 : S100000x512.Idx → Elt Ideal .f32) (a1 : S512x16.Idx → Elt Ideal .f32) (a2 : S100000x1.Idx → Elt Ideal .f32) :
    S100000x16.Idx → Elt Ideal .f32 :=
  fun i => (∑ k : Fin 512, a0 (ix2 (i 0) k) * a1 (ix2 k (i 1))) * a2 (ix2 (i 0) 0)

/-- A step's entry (p, q) is the table's entry i as soon as the step's blocks agree with the arrays on
    the entries the two formulas read. -/
theorem pay_eq_tab (x0 : Vec Ideal S4000x512 .f32) (x1 : Vec Ideal S512x16 .f32) (x2 : Vec Ideal S4000x1 .f32)
    (a0 : S100000x512.Idx → Elt Ideal .f32) (a1 : S512x16.Idx → Elt Ideal .f32) (a2 : S100000x1.Idx → Elt Ideal .f32)
    (p : Fin 4000) (q : Fin 16) (i : S100000x16.Idx)
    (e0 : ∀ k : Fin 512, x0 (ix2 p k) = a0 (ix2 (i 0) k))
    (e1 : ∀ k : Fin 512, x1 (ix2 k q) = a1 (ix2 k (i 1)))
    (e2 : x2 (ix2 p 0) = a2 (ix2 (i 0) 0)) :
    k0_pay1 x0 x1 x2 (ix2 p q) = tab a0 a1 a2 i := by
  rw [KerPay.pay_apply]
  show _ = (∑ k : Fin 512, a0 (ix2 (i 0) k) * a1 (ix2 k (i 1))) * a2 (ix2 (i 0) 0)
  rw [e2]
  refine congrArg (· * a2 (ix2 (i 0) 0)) ?_
  exact Finset.sum_congr rfl fun k _ => by rw [e0 k, e1 k]

/-- The block indices, decided over the 25 steps: the three row-blocked windows are at row block t,
    column block 0; the weights are at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Two rank-2 indices with the same coordinates are equal. -/
theorem idx2_ext {n0 n1 : Nat} (i j : (⟨2, ![n0, n1]⟩ : Shape).Idx) (h0 : (i 0).val = (j 0).val) (h1 : (i 1).val = (j 1).val) :
    i = j := by
  funext a; apply Fin.ext
  match a with
  | ⟨0, _⟩ => exact h0
  | ⟨1, _⟩ => exact h1

/-! The three input blocks of step t, read off ANY contents of their arrays: a block's coordinate on an
    axis is the block index times the block's extent plus the coordinate inside the block. -/

/-- Entry (p, k) of the features' block at step t is the array's entry (r, k) for r = 4000·t + p. -/
theorem read0_apply (A : S100000x512.Idx → Elt Ideal .f32) (t : Fin cfg0.N) (p : Fin 4000) (k : Fin 512) (r : Fin 100000)
    (hr : r.val = t.val * 4000 + p.val) :
    (((cfg0.win 0).blk t).view.read (Elt Ideal) A : Vec Ideal S4000x512 .f32) (ix2 p k) = A (ix2 r k) := by
  obtain ⟨e0, e1, -⟩ := idx_facts t
  rw [View.read_apply]
  show A (((cfg0.win 0).blk t).view.emb (ix2 p k)) = _
  refine congrArg A (idx2_ext (n0 := 100000) (n1 := 512) _ _ ?_ ?_)
  · show win0_0.index t (0 : Fin 2) * 4000 + 1 * p.val = r.val
    rw [e0, hr]; omega
  · show win0_0.index t (1 : Fin 2) * 512 + 1 * k.val = k.val
    rw [e1]; omega

/-- The weights' block at every step is the whole weight matrix. -/
theorem read1_apply (A : S512x16.Idx → Elt Ideal .f32) (t : Fin cfg0.N) (k : Fin 512) (q q' : Fin 16) (hq : q'.val = q.val) :
    (((cfg0.win 1).blk t).view.read (Elt Ideal) A : Vec Ideal S512x16 .f32) (ix2 k q) = A (ix2 k q') := by
  obtain ⟨-, -, e2, e3, -⟩ := idx_facts t
  rw [View.read_apply]
  show A (((cfg0.win 1).blk t).view.emb (ix2 k q)) = _
  refine congrArg A (idx2_ext (n0 := 512) (n1 := 16) _ _ ?_ ?_)
  · show win0_1.index t (0 : Fin 2) * 512 + 1 * k.val = k.val
    rw [e2]; omega
  · show win0_1.index t (1 : Fin 2) * 16 + 1 * q.val = q'.val
    rw [e3, hq]; omega

/-- Entry (p, 0) of the column's block at step t is the column's entry (r, 0) for r = 4000·t + p. -/
theorem read2_apply (A : S100000x1.Idx → Elt Ideal .f32) (t : Fin cfg0.N) (p : Fin 4000) (r : Fin 100000)
    (hr : r.val = t.val * 4000 + p.val) :
    (((cfg0.win 2).blk t).view.read (Elt Ideal) A : Vec Ideal S4000x1 .f32) (ix2 p 0) = A (ix2 r 0) := by
  obtain ⟨-, -, -, -, e4, e5, -⟩ := idx_facts t
  rw [View.read_apply]
  show A (((cfg0.win 2).blk t).view.emb (ix2 p 0)) = _
  refine congrArg A (idx2_ext (n0 := 100000) (n1 := 1) _ _ ?_ ?_)
  · show win0_2.index t (0 : Fin 2) * 4000 + 1 * p.val = r.val
    rw [e4, hr]; omega
  · show win0_2.index t (1 : Fin 2) * 1 + 1 * 0 = 0
    rw [e5]

/-- The arithmetic of step t on the blocks of ANY three arrays is the row block t of their table. -/
theorem step_block (A0 : S100000x512.Idx → Elt Ideal .f32) (A1 : S512x16.Idx → Elt Ideal .f32) (A2 : S100000x1.Idx → Elt Ideal .f32)
    (t : Fin cfg0.N) :
    (cfg0.win 3).cut (grid0.coords t)
        (k0_pay1 (((cfg0.win 0).blk t).view.read (Elt Ideal) A0) (((cfg0.win 1).blk t).view.read (Elt Ideal) A1)
          (((cfg0.win 2).blk t).view.read (Elt Ideal) A2))
      = ((cfg0.win 3).blk t).view.read (Elt Ideal) (tab A0 A1 A2) := by
  obtain ⟨-, -, -, -, -, -, e6, e7⟩ := idx_facts t
  funext j
  have hj0 : (j 0).val < 4000 := (j 0).isLt
  have hj1 : (j 1).val < 16 := (j 1).isLt
  have hx : (win0_3.xinj (grid0.coords t) j : S4000x16.Idx) = ix2 (⟨(j 0).val, hj0⟩ : Fin 4000) (⟨(j 1).val, hj1⟩ : Fin 16) :=
    idx2_ext (n0 := 4000) (n1 := 16) _ _ rfl rfl
  rw [View.read_apply]
  show k0_pay1 (F := Ideal) _ _ _ (win0_3.xinj (grid0.coords t) j) = tab A0 A1 A2 (((cfg0.win 3).blk t).view.emb j)
  rw [hx]
  have hr : ((((cfg0.win 3).blk t).view.emb j : S100000x16.Idx) 0).val = t.val * 4000 + (j 0).val := by
    show win0_3.index t (0 : Fin 2) * 4000 + 1 * (j 0).val = _
    rw [e6]; omega
  have hq : ((((cfg0.win 3).blk t).view.emb j : S100000x16.Idx) 1).val = (j 1).val := by
    show win0_3.index t (1 : Fin 2) * 16 + 1 * (j 1).val = _
    rw [e7]; omega
  exact pay_eq_tab _ _ _ A0 A1 A2 ⟨(j 0).val, hj0⟩ ⟨(j 1).val, hj1⟩ (((cfg0.win 3).blk t).view.emb j)
    (fun k => read0_apply A0 t ⟨(j 0).val, hj0⟩ k _ hr) (fun k => read1_apply A1 t k ⟨(j 1).val, hj1⟩ _ hq)
    (read2_apply A2 t ⟨(j 0).val, hj0⟩ _ hr)

/-- WHAT STEP t WRITES BACK is row block t of the table of the three arrays as the steps find them. -/
theorem flushed_eq (c : Dev nD) (t : Fin cfg0.N) :
    (dats m 0 c).flushed 3 t
      = ((cfg0.win 3).blk t).view.read (Elt Ideal) (tab (V m c main_arg0) (V m c main_arg2) (V m c main_v15)) := by
  show (cfg0.win 3).cut (grid0.coords t) ((dats m 0 c).after 3 t) = _
  rw [after0_3]
  unfold out0_3
  rw [View.canon_unit_zero zeros]
  simp only [View.ld_unit_zero (S := S4000x512) zeros, View.ld_unit_zero (S := S512x16) zeros, View.ld_unit_zero (S := S4000x1) zeros]
  exact step_block (V m c main_arg0) (V m c main_arg2) (V m c main_v15) t

/-- An index of the output array is in step t's block iff each coordinate is in the block's range. -/
theorem mem_blk (t : Fin cfg0.N) (i : S100000x16.Idx) :
    i ∈ ((cfg0.win 3).blk t).view.set ↔ ∀ a : Fin 2, win0_3.index t a * S4000x16.size a ≤ (i a).val ∧ (i a).val < win0_3.index t a * S4000x16.size a + S4000x16.size a := by
  show i ∈ ((View.whole main_v16).slice (win0_3.rect t)).set ↔ _
  rw [View.set_slice_whole, Rect.mem_set_unit]
  exact Iff.rfl

/-- The 25 row blocks cover the array: row r is in the block of step r / 4000. -/
theorem cover (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, e6, e7⟩ := idx_facts t
  refine ⟨t, flush0_3 t, ?_⟩
  rw [mem_blk]
  refine Fin.forall_fin_two.mpr ⟨?_, ?_⟩
  · show win0_3.index t (0 : Fin 2) * 4000 ≤ (i 0).val ∧ (i 0).val < win0_3.index t (0 : Fin 2) * 4000 + 4000
    rw [e6, ht]; omega
  · show win0_3.index t (1 : Fin 2) * 16 ≤ (i 1).val ∧ (i 1).val < win0_3.index t (1 : Fin 2) * 16 + 16
    rw [e7]; omega

/-- THE OUTPUT ARRAY after the 25 steps is the table of the three arrays as the steps find them. -/
theorem table_entry (c : Dev nD) :
    (dats m 0 c).arrAt 3 cfg0.N = tab (V m c main_arg0) (V m c main_arg2) (V m c main_v15) :=
  (dats m 0 c).arrAt_eq_of_cover 3 (tab (V m c main_arg0) (V m c main_arg2) (V m c main_v15))
    (fun t _ => flushed_eq m c t) cover

/-- The table over a FLAT column d: entry (r, h) is (sum over k of x[r, k] · W[k, h]) · d[r]. -/
abbrev scaledBy (x : FVec Ideal Cert.Spec.SX .f32) (W : FVec Ideal Cert.Spec.SW .f32) (d : FVec Ideal Cert.Spec.SN .f32) :
    FVec Ideal Cert.Spec.SNH .f32 :=
  fun i => (∑ k : Fin 512, x (ix2 (i 0) k) * W (ix2 k (i 1))) * d (ix1 (i 0))

/-- The table of three arrays whose column agrees entry by entry with a flat array d is the table over d. -/
theorem tab_of_col (A0 : S100000x512.Idx → Elt Ideal .f32) (A1 : S512x16.Idx → Elt Ideal .f32) (A2 : S100000x1.Idx → Elt Ideal .f32)
    (d : FVec Ideal Cert.Spec.SN .f32) (hd : ∀ r : Fin 100000, A2 (ix2 r 0) = d (ix1 r)) :
    tab A0 A1 A2 = scaledBy A0 A1 d := by
  funext i
  exact congrArg ((∑ k : Fin 512, A0 (ix2 (i 0) k) * A1 (ix2 k (i 1))) * ·) (hd (i 0))

/-- THE KERNEL'S TABLE: for any flat array d that the column the steps read agrees with, the output array
    ends with entry (r, h) equal to (sum over k of x[r, k] · W[k, h]) · d[r], x and W the launch contents of
    the first and third arguments. -/
theorem table_of (c : Dev nD) (d : FVec Ideal Cert.Spec.SN .f32)
    (hd : ∀ r : Fin 100000, V m c main_v15 (ix2 r 0) = d (ix1 r)) :
    (dats m 0 c).arrAt 3 cfg0.N
      = scaledBy (m ((c.tc : Thread nD τ).loc main_arg0)) (m ((c.tc : Thread nD τ).loc main_arg2)) d := by
  rw [table_entry m c, V_main_arg0 m c, V_main_arg2 m c]
  exact tab_of_col _ _ (V m c main_v15) d hd

/-- With d the inverse square roots of the degrees of the second argument, the table is the specification's. -/
theorem table (c : Dev nD)
    (hd : ∀ r : Fin 100000, V m c main_v15 (ix2 r 0)
      = Cert.Spec.dinv (F := Ideal) (m ((c.tc : Thread nD τ).loc main_arg1)) (ix1 r)) :
    (dats m 0 c).arrAt 3 cfg0.N
      = Cert.Spec.scaled (m ((c.tc : Thread nD τ).loc main_arg0)) (m ((c.tc : Thread nD τ).loc main_arg1))
          (m ((c.tc : Thread nD τ).loc main_arg2)) :=
  table_of m c _ hd

end Cert.KernelIdeal.KerTable

end
-- ==== Proof.KerTail.lean ====
/-
  The kernel program's host operations after its one region, at any float instance, and the program's run.

  The later operations read five buffers: the sources and the targets with the self-loops (`main_v3`, `main_v6`), the
  inverse square roots of the degrees (`main_v14`), the bias (the program's fourth argument) and the region's output
  table `P : [100000, 16]` (`main_v16`). They normalise the sources as gather indices, gather the rows `P[src e, :]`,
  accumulate them at their targets into a zero array, multiply row `c` of the sum by `dinv[c]` and add the bias: the
  specification's `kerOutOf P`.

  * `tail_of`: the nineteen operations from ANY buffer contents holding those five values end with `kerOutOf` in
    the result buffer `main_v32`.
  * `tail_eq`: the contents the region leaves are the region-entry contents with the output array replaced by the
    table; the other four buffers are none of the pipeline's arrays, so they hold what the earlier operations left.
  * `run_of`: every fair execution of the program ends with `kerOutOf` of the table in the result buffer and the four
    arguments as launched.
-/
import proofs.«177567_j19928648253614_2_alg».proof.Proof.Gen.KernelIdeal.Frame
import proofs.«177567_j19928648253614_2_alg».proof.Proof.Spec
import proofs.«177567_j19928648253614_2_alg».proof.Proof.KerHost

noncomputable section

namespace Cert.KernelIdeal.KerTail

open Idealize.ShloMosaic Idealize.ShloMosaic.TcCoe Idealize.ShloMosaic.ValueIdx
open Idealize.SL Idealize.SL.Sem
open Cert.KernelIdeal Cert.KernelIdeal.Gen

variable {F : FTy → Type} [FloatOps F]

/-- The later operations over any buffer contents `W` that hold the edge lists, the inverse square roots, the table
    and the bias where the operations read them. -/
theorem tail_of (W : Valuation τ sig (Elt F)) (E : IVec Cert.Spec.SEI 32) (P : FVec F Cert.Spec.SNH .f32) (b : FVec F Cert.Spec.SB .f32)
    (h3 : (W (Proc.devRef .tc main_v3) : IVec Cert.Spec.SE 32) = Cert.Spec.srcs E)
    (h6 : (W (Proc.devRef .tc main_v6) : IVec Cert.Spec.SE 32) = Cert.Spec.tgts E)
    (h14 : (W (Proc.devRef .tc main_v14) : FVec F Cert.Spec.SN .f32) = Cert.Spec.dinv (F := F) E)
    (h16 : (W (Proc.devRef .tc main_v16) : FVec F Cert.Spec.SNH .f32) = P)
    (hb : (W (Proc.devRef .tc main_arg3) : FVec F Cert.Spec.SB .f32) = b) :
    (StableHlo.after (Gen.hostOps1 (F := F)) W (Proc.devRef .tc main_v32) : FVec F Cert.Spec.SNH .f32) = Cert.Spec.kerOutOf P E b := by
  simp only [Gen.hostOps1]
  after_results_simp
  rw [h3, h6, h14, h16, hb]
  rfl

section Tail

variable (m : (ℓ : Loc nD τ sig) → Buf (Elt F) ℓ) (c : Dev nD)

/-- The result buffer after the later operations, from the contents the region leaves: the output array holds the
    table `P`; the edge lists, the inverse square roots and the bias sit in buffers that are no array of the
    pipeline, at what the earlier operations left there. -/
theorem tail_eq (P : FVec F Cert.Spec.SNH .f32) (hP : (Gen.dats m 0 c).arrAt 3 cfg0.N = P) :
    Pipeline.afterTail₀ cfgs (Gen.dats m) 0 (Gen.V0 m) [Gen.hostOps1] c main_v32
      = Cert.Spec.kerOutOf P (m ((c.tc : Thread nD τ).loc main_arg1)) (m ((c.tc : Thread nD τ).loc main_arg3)) := by
  unfold Pipeline.afterTail₀
  show StableHlo.after Gen.hostOps1 _ (Proc.devRef .tc main_v32) = _
  refine tail_of _ (m ((c.tc : Thread nD τ).loc main_arg1)) P (m ((c.tc : Thread nD τ).loc main_arg3)) ?_ ?_ ?_ ?_ ?_
  · rw [Pipeline.withArrays_of_ne _ c (Gen.V0 m c) _ main_v3 (by exact (by decide : ∀ w, Pipeline.arrRef spec0 w ≠ main_v3))]
    exact KerHost.V_srcs m c
  · rw [Pipeline.withArrays_of_ne _ c (Gen.V0 m c) _ main_v6 (by exact (by decide : ∀ w, Pipeline.arrRef spec0 w ≠ main_v6))]
    exact KerHost.V_tgts m c
  · rw [Pipeline.withArrays_of_ne _ c (Gen.V0 m c) _ main_v14 (by exact (by decide : ∀ w, Pipeline.arrRef spec0 w ≠ main_v14))]
    exact KerHost.V_dinv m c
  · exact (Pipeline.withArrays_arr spec0 launch0.win.arr_inj c _ _ 3).trans hP
  · rw [Pipeline.withArrays_of_ne _ c (Gen.V0 m c) _ main_arg3 (by exact (by decide : ∀ w, Pipeline.arrRef spec0 w ≠ main_arg3))]
    exact Gen.V_main_arg3 m c

end Tail

/-- The run on the extended reals, given the table the region leaves on each core: every weakly fair execution of
    the program terminates with `kerOutOf` of the table, the launched edge list and the launched bias in the result
    buffer, and with the four arguments as launched. -/
theorem run_of (m : (ℓ : Loc nD τ sig) → Buf (Elt Ideal) ℓ) (ρ : Dev nD → PrngReg)
    (P : (c : Dev nD) → FVec Ideal Cert.Spec.SNH .f32) (hP : ∀ c, (Gen.dats m 0 c).arrAt 3 cfg0.N = P c) :
    θ_run defs (onTc (τ := τ) (main (F := Ideal))) ⟨m, fun _ => 0, ρ⟩ (fun r => ∀ c : Dev nD,
      r.2.mem ((c.tc : Thread nD τ).loc main_v32)
          = Cert.Spec.kerOutOf (P c) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v32 (Pipeline.mem_restRefs_of main_v32 (by decide) (by decide))).trans (tail_eq m c (P c) (hP c)),
      ((h c).1 0).trans (((Gen.dats m 0 c).arrAt_in 0 rfl _).trans ((Gen.A_eq m c 0).trans (Gen.V_main_arg0 m c))),
      ((h c).2 main_arg1 (Pipeline.mem_restRefs_of main_arg1 (by decide) (by decide))).trans (Gen.W_main_arg1 m (Gen.dats m) c),
      ((h c).1 1).trans (((Gen.dats m 0 c).arrAt_in 1 rfl _).trans ((Gen.A_eq m c 1).trans (Gen.V_main_arg2 m c))),
      ((h c).2 main_arg3 (Pipeline.mem_restRefs_of main_arg3 (by decide) (by decide))).trans (Gen.W_main_arg3 m (Gen.dats m) c)⟩)
    (Gen.run_main m ρ)

end Cert.KernelIdeal.KerTail

end
-- ==== Proof.LibVariance.lean ====
/-
  Sums of real numbers inside the extended reals, and the law that joins the two ways of computing a
  variance: for real numbers `h i` over a finite set of `n` elements, with mean `μ = (∑ h) / n`,

      (∑ (h i − μ)²) / n  =  (∑ (h i)²) / n − μ²,

  first over ℝ, then over the extended reals with the division `Ideal.div` by the real `n ≠ 0`. Over the
  extended reals the law needs every `h i` real: with one entry `⊤` the left side is `⊤` and the right side
  `⊤ − ⊤ = ⊥`. Also here: the extended-real operations that occur around it send real arguments to real
  results (sums, products, differences, quotients by a nonzero real, the maximum, the reciprocal square root
  of a positive real), stated through the predicate "is the coercion of a real".
-/
import Mathlib
import Idealize.ShloMosaic.PureOps.Ideal

namespace Cert.LibVariance

open Idealize.ShloMosaic

/-- An extended real that is (the coercion of) a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rwa [max_eq_right h]
  · rwa [max_eq_left h]
theorem IsReal.div_coe {x : EReal} (hx : IsReal x) {n : ℝ} (hn : n ≠ 0) : IsReal (Ideal.div x (n : EReal)) := by
  rw [Ideal.div_coe hn]; exact hx.mul (IsReal.coe _)

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The reciprocal square root of a positive real is real. -/
theorem IsReal.rsqrt_pos {r : ℝ} (hr : 0 < r) : IsReal (Ideal.rsqrt (r : EReal)) := by
  rw [Ideal.rsqrt_coe, if_neg (not_lt.mpr hr.le), if_neg hr.ne']
  exact IsReal.coe _

/-- The variance law over ℝ: the mean of the squared deviations from the mean is the mean of the squares
    minus the square of the mean (`n` the number of terms). -/
theorem variance_real {ι : Type*} (s : Finset ι) (h : ι → ℝ) (n : ℝ) (hcard : (s.card : ℝ) = n) (hn : n ≠ 0) :
    (∑ i ∈ s, (h i - (∑ j ∈ s, h j) / n) * (h i - (∑ j ∈ s, h j) / n)) / n
      = (∑ i ∈ s, h i * h i) / n - (∑ j ∈ s, h j) / n * ((∑ j ∈ s, h j) / n) := by
  set S := ∑ j ∈ s, h j with hS
  have h1 : ∑ i ∈ s, (h i - S / n) * (h i - S / n)
      = ∑ i ∈ s, h i * h i - 2 * (S / n) * S + n * (S / n * (S / n)) := by
    have : ∀ i, (h i - S / n) * (h i - S / n) = h i * h i - 2 * (S / n) * h i + S / n * (S / n) := fun i => by ring
    simp only [this, Finset.sum_add_distrib, Finset.sum_sub_distrib, ← Finset.mul_sum, Finset.sum_const, nsmul_eq_mul,
      hcard, ← hS]
    ring
  rw [h1]
  field_simp
  ring

/-- The variance law over the extended reals, for REAL entries and the extended-real quotient by the real
    `n ≠ 0`, `n` the number of terms. -/
theorem variance_ereal {ι : Type*} (s : Finset ι) (h : ι → ℝ) (n : ℝ) (hcard : (s.card : ℝ) = n) (hn : n ≠ 0) :
    Ideal.div (∑ i ∈ s, ((h i : EReal) - Ideal.div (∑ j ∈ s, (h j : EReal)) (n : EReal))
                       * ((h i : EReal) - Ideal.div (∑ j ∈ s, (h j : EReal)) (n : EReal))) (n : EReal)
      = Ideal.div (∑ i ∈ s, (h i : EReal) * (h i : EReal)) (n : EReal)
          - Ideal.div (∑ j ∈ s, (h j : EReal)) (n : EReal) * Ideal.div (∑ j ∈ s, (h j : EReal)) (n : EReal) := by
  simp only [Ideal.div_coe hn, ← coe_sum, ← EReal.coe_mul, ← EReal.coe_sub]
  rw [EReal.coe_eq_coe_iff]
  simp only [one_div, ← div_eq_mul_inv]
  exact variance_real s h n hcard hn

end Cert.LibVariance
-- ==== Proof.Finite.lean ====
/-
  The precondition "every float argument is finite", read back on the extended reals.

  The printed predicate compares, entry by entry, the absolute value `max x (−x)` with the number the pattern
  0x7F800000 denotes, which is +∞, joins the comparisons of each array by "and" over all of its entries, and joins
  the three arrays' results by "and". If the predicate is 1 then every join is 1, so every comparison is 1: every
  entry `x` has `max x (−x) < ⊤`. On the extended reals that excludes ⊤ (whose absolute value is ⊤) and ⊥ (whose
  negation is ⊤), so the entry is the coercion of a real number.
-/
import Mathlib
import proofs.«177567_j19928648253614_2_alg».proof.Defs
import proofs.«177567_j19928648253614_2_alg».proof.Proof.LibVariance
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx
open Cert.LibVariance (IsReal)

/-- The shape of a scalar has one index. -/
instance : Subsingleton (⟨0, ![]⟩ : Shape).Idx := ⟨fun a b => funext fun d => d.elim0⟩

/-- The pattern of a set exponent field and a zero significand is +∞. -/
theorem ofBits_inf : Ideal.ofBits .f32 0x7F800000#32 = (⊤ : EReal) := by
  simp [Ideal.ofBits, Ideal.ieee]

/-- An extended real whose absolute value `max x (−x)` is below ⊤ is a real number. -/
theorem isReal_of_abs_lt_top (x : EReal) (h : max x (-x) < ⊤) : IsReal x := by
  induction x using EReal.rec with
  | bot => simp at h
  | coe r => exact ⟨r, rfl⟩
  | top => simp at h

/-- One entry: the comparison of its absolute value with the broadcast +∞ pattern is 1. -/
theorem isReal_of_cmp {s : Shape} (x : FVec Ideal s .f32) (hb : (⟨0, ![]⟩ : Shape).BroadcastsInDim s ![]) (i : s.Idx)
    (h : cmpf .olt (Host.absf x) (broadcastInDim s ![] hb (constant (⟨0, ![]⟩ : Shape) .f32 0x7F800000#32)) i = 1#1) :
    IsReal (x i) := by
  have h' : BitVec.ofBool (decide (max (x i) (-(x i)) < Ideal.ofBits .f32 0x7F800000#32)) = 1#1 := h
  rw [ofBits_inf] at h'
  refine isReal_of_abs_lt_top (x i) ?_
  cases hd : decide (max (x i) (-(x i)) < (⊤ : EReal)) with
  | false => rw [hd] at h'; exact absurd h' (by decide)
  | true => exact of_decide_eq_true hd

/-- One array: the "and" of the comparisons over all entries, from 1, is 1. -/
theorem all_real {s : Shape} {axes : List (Fin s.rank)} (x : FVec Ideal s .f32)
    (hb : (⟨0, ![]⟩ : Shape).BroadcastsInDim s ![]) (hr : s.ReducesTo axes (⟨0, ![]⟩ : Shape)) (hu : 0 < (⟨0, ![]⟩ : Shape).numel)
    (h : Host.reduce IntOp.andi (cmpf .olt (Host.absf x) (broadcastInDim s ![] hb (constant (⟨0, ![]⟩ : Shape) .f32 0x7F800000#32)))
        (constantI (⟨0, ![]⟩ : Shape) 1 1#1) hr hu ix0 = 1#1) :
    ∀ i, IsReal (x i) :=
  fun i => isReal_of_cmp x hb i (Host.reduce_andi_all _ _ hr hu ix0 h i)

/-- The printed predicate being 1 makes every entry of the first and of the third argument a real number. -/
theorem real_of_fn [Cert.Pre_finite_inputs.Facts] (x : FVec Ideal Cert.Pre_finite_inputs.S100000x512 .f32)
    (e : IVec Cert.Pre_finite_inputs.S2x3200000 32) (W : FVec Ideal Cert.Pre_finite_inputs.S512x16 .f32)
    (b : FVec Ideal Cert.Pre_finite_inputs.S16 .f32)
    (h : Cert.Pre_finite_inputs.fn (F := Ideal) x e W b = fun _ => 1#1) :
    (∀ i, IsReal (x i)) ∧ (∀ i, IsReal (W i)) := by
  have h0 := congrFun h ix0
  dsimp only [Cert.Pre_finite_inputs.fn] at h0
  obtain ⟨h12, -⟩ := IntOp.andi_eq_one.1 h0
  obtain ⟨hx, hW⟩ := IntOp.andi_eq_one.1 h12
  exact ⟨all_real x _ _ _ hx, all_real W _ _ _ hW⟩

/-! ## The kernel program's float arguments -/

section Arguments

open Idealize.ShloMosaic.TcCoe Idealize.SL.Sem
open Cert.KernelIdeal

variable [Cert.Pre_finite_inputs.Facts] (m : (ℓ : Loc nD τ sig) → Buf (Elt Ideal) ℓ) (hpre : Cert.Pre_KernelIdeal m)
include hpre

/-- Under the precondition every entry of the node features is a real number, -/
theorem x_real (c : Dev nD) (i : Cert.Pre_finite_inputs.S100000x512.Idx) :
    IsReal (m ((c.tc : Thread nD τ).loc main_arg0) i) :=
  (real_of_fn _ _ _ _ (hpre c)).1 i

/-- and so is every entry of the weights. -/
theorem w_real (c : Dev nD) (i : Cert.Pre_finite_inputs.S512x16.Idx) :
    IsReal (m ((c.tc : Thread nD τ).loc main_arg2) i) :=
  (real_of_fn _ _ _ _ (hpre c)).2 i

end Arguments

end Cert.Finite

end
-- ==== Proof.IndexLaws.lean ====
/-
  The two gathers and the row scatter of the graph-convolution layer, read at an index.

  A gather clamps: position `e` of a gather through the one-column index array `idx` reads the operand at row
  `min (idx[e, 0] read signed, negatives to 0) 99999` (and, for rows of 16, at the same column). The accumulating
  scatter does not clamp: an update row `e` lands on result row `c` only if `idx[e, 0]`, read signed, IS `c`.
  Hence a position that lands on row `c` has a non-negative target below 100000, the index normalisation leaves
  that target alone, and the clamped gather through the normalised targets reads row `c` itself.
-/
import Mathlib
import Idealize.ShloMosaic.Lib.ValueIdx
import Idealize.ShloMosaic.Lib.Pipeline.Value
import proofs.«177567_j19928648253614_2_alg».proof.Proof.Spec

namespace Cert.IndexLaws

open Idealize.ShloMosaic Idealize.ShloMosaic.ValueIdx Cert.Spec

/-- The row a clamped gather reads for the index word `v`. -/
def clampRow (v : BitVec 32) : Fin 100000 := ⟨min v.toInt.toNat 99999, by omega⟩

/-- A list read through its one-column index array. -/
theorem col_apply (v : IVec SE 32) (e : Fin 3300000) : col v (ix2 e 0) = v (ix1 e) := by
  unfold col
  refine broadcastInDim_apply _ _ v (ix2 e 0) (ix1 e) fun a => ?_
  match a with
  | ⟨0, _⟩ => rfl

/-- The normalisation of an index word: a negative word moved up by 100000. -/
theorem wrap_apply (v : IVec SE 32) (e : Fin 3300000) :
    wrap v (ix1 e) = if (v (ix1 e)).slt 0#32 then v (ix1 e) + 100000#32 else v (ix1 e) := by
  show Scalar.select (IntOp.cmpi .slt (v (ix1 e)) 0#32) (IntOp.addi (v (ix1 e)) 100000#32) (v (ix1 e)) = _
  unfold Scalar.select IntOp.cmpi IntOp.addi
  by_cases h : (v (ix1 e)).slt 0#32 = true
  · simp [h]
  · simp [h]

/-- A word that reads, signed, as a row number `c < 100000` is left alone by the normalisation and clamps to `c`. -/
theorem clampRow_wrap_of_toInt (v : IVec SE 32) (e : Fin 3300000) (c : Fin 100000)
    (h : (v (ix1 e)).toInt = (c.val : Int)) : clampRow (wrap v (ix1 e)) = c := by
  have hns : ¬ ((v (ix1 e)).slt 0#32 = true) := by
    rw [BitVec.slt_iff_toInt_lt, h]; simp
  rw [wrap_apply, if_neg hns]
  apply Fin.ext
  show min (v (ix1 e)).toInt.toNat 99999 = c.val
  rw [h]; have := c.isLt; simp; omega

/-- The entry gather at position `e`: the operand at the clamped row of the index word. -/
theorem gat1_apply {α : Type} {w : Nat} (x : SN.Idx → α) (idx : IVec SE1 w) (e : Fin 3300000) :
    Host.gather gat1 x idx (ix1 e) = x (ix1 ⟨min (idx (ix2 e 0)).toInt.toNat 99999, by omega⟩) := by
  unfold Host.gather
  congr 1
  funext a
  obtain rfl : a = 0 := Subsingleton.elim _ _
  refine Fin.ext ?_
  show gat1.start (ix1 e) idx 0 + gat1.batchCoord (ix1 e) 0 + gat1.offCoord (ix1 e) 0 = _
  rw [GatherDims.batchCoord_eq_zero _ _ _ (by show (0 : Fin 1) ∉ ([] : List (Fin 1)); exact List.not_mem_nil),
    GatherDims.offCoord_eq_zero _ _ _ (fun h => ((GatherDims.mem_sKept _ _).mp h).1 (by show (0 : Fin 1) ∈ [0]; exact List.mem_singleton.mpr rfl))]
  simp only [Nat.add_zero]
  unfold GatherDims.start
  rw [dif_pos (show (0 : Fin 1) ∈ gat1.startIndexMap from List.mem_singleton.mpr rfl)]
  have hsi : gat1.siIdx (ix1 e) ⟨List.idxOf (0 : Fin 1) gat1.startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The row gather's operand row: the clamped row of the index word. -/
theorem gat2_row {w : Nat} (idx : IVec SE1 w) (e : Fin 3300000) (h : Fin 16) :
    (gat2.operandIdx (ix2 e h) idx 0).val = min (idx (ix2 e 0)).toInt.toNat 99999 := by
  show gat2.start (ix2 e h) idx 0 + gat2.batchCoord (ix2 e h) 0 + gat2.offCoord (ix2 e h) 0 = _
  rw [GatherDims.batchCoord_eq_zero _ _ _ (by show (0 : Fin 2) ∉ ([] : List (Fin 2)); exact List.not_mem_nil),
    GatherDims.offCoord_eq_zero _ _ _ (fun h' => ((GatherDims.mem_sKept _ _).mp h').1 (by show (0 : Fin 2) ∈ [0]; exact List.mem_singleton.mpr rfl))]
  simp only [Nat.add_zero]
  unfold GatherDims.start
  rw [dif_pos (show (0 : Fin 2) ∈ gat2.startIndexMap from List.mem_singleton.mpr rfl)]
  have hsi : gat2.siIdx (ix2 e h) ⟨List.idxOf (0 : Fin 2) gat2.startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The row gather's operand column: the position's own column. -/
theorem gat2_col {w : Nat} (idx : IVec SE1 w) (e : Fin 3300000) (h : Fin 16) :
    (gat2.operandIdx (ix2 e h) idx 1).val = h.val := by
  show gat2.start (ix2 e h) idx 1 + gat2.batchCoord (ix2 e h) 1 + gat2.offCoord (ix2 e h) 1 = _
  rw [GatherDims.batchCoord_eq_zero _ _ _ (by show (1 : Fin 2) ∉ ([] : List (Fin 2)); exact List.not_mem_nil)]
  have hs : gat2.start (ix2 e h) idx 1 = 0 := by
    unfold GatherDims.start
    rw [dif_neg (show (1 : Fin 2) ∉ gat2.startIndexMap from by show (1 : Fin 2) ∉ [0]; decide)]
  rw [hs]
  simp only [Nat.add_zero, Nat.zero_add]
  unfold GatherDims.offCoord
  rw [dif_pos (show (1 : Fin 2) ∈ gat2.sKept from by decide)]
  rfl

/-- The row gather at position `(e, h)`: the operand at the clamped row of the index word, column `h`. -/
theorem gat2_apply {α : Type} {w : Nat} (x : SNH.Idx → α) (idx : IVec SE1 w) (e : Fin 3300000) (h : Fin 16) :
    Host.gather gat2 x idx (ix2 e h) = x (ix2 ⟨min (idx (ix2 e 0)).toInt.toNat 99999, by omega⟩ h) := by
  unfold Host.gather
  congr 1
  funext a
  refine Fin.ext ?_
  match a with
  | ⟨0, _⟩ => exact gat2_row idx e h
  | ⟨1, _⟩ => exact gat2_col idx e h

/-- An update row that the row scatter lands on result row `c` carries, in its index word read signed, `c`. -/
theorem scat2_lands {w : Nat} (idx : IVec SE1 w) (j : SEH.Idx) (i : SNH.Idx)
    (hji : scat2.resultIdx? j idx = some i) : (idx (ix2 (j 0) 0)).toInt = ((i 0).val : Int) := by
  unfold ScatterDims.resultIdx? at hji
  split at hji
  · rename_i hall
    have hi := Option.some.inj hji
    have h0 := hall 0
    have e0 : ((scat2.start j idx 0 + (scat2.window j 0 : Int)).toNat) = (i 0).val := by
      rw [← hi]
    have hw : scat2.window j 0 = 0 := by
      unfold ScatterDims.window
      rw [dif_neg (show (0 : Fin 2) ∉ scat2.sKept from by decide)]
    have hst : scat2.start j idx 0 = (idx (ix2 (j 0) 0)).toInt := by
      unfold ScatterDims.start
      rw [dif_pos (show (0 : Fin 2) ∈ scat2.scatterDimsToOperandDims from List.mem_singleton.mpr rfl)]
      have hsi : scat2.siIdx j ⟨List.idxOf (0 : Fin 2) scat2.scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    rw [hw, hst] at e0 h0
    simp only [Nat.cast_zero, add_zero] at e0 h0
    omega
  · exact absurd hji (by simp)

end Cert.IndexLaws
-- ==== Proof.Reals.lean ====
/-
  Real-valuedness of the layer's intermediate arrays on the extended reals, and the one algebraic law that joins the
  two arrangements.

  The degree of a node is zero plus a sum of ones, a real number; its normalisation `dinv` is the reciprocal square
  root of a positive real or zero, a real number; `x · W` of real entries is real. For real `a j`, `p j` and a real
  `d`,   0 + ∑ (a j · d) · p j  =  d · (0 + ∑ p j · a j)   — the distributive law, which fails on the extended reals when
  an infinity is present (0 · ⊤ = 0, ⊤ + ⊥ = ⊥) and is why the entries must be real.
-/
import Mathlib
import Idealize.ShloMosaic.PureOps.Ideal.Laws
import Idealize.ShloMosaic.Lib.IdealHost
import proofs.«177567_j19928648253614_2_alg».proof.Proof.Spec
import proofs.«177567_j19928648253614_2_alg».proof.Proof.LibDot
import proofs.«177567_j19928648253614_2_alg».proof.Proof.LibVariance

namespace Cert.Reals

open Idealize.ShloMosaic Idealize.ShloMosaic.ValueIdx Cert.Spec Cert.LibVariance

/-- The distributive law for real entries inside the extended reals. -/
theorem sum_law {ι : Type*} (S : Finset ι) (a p : ι → EReal) (d : EReal)
    (ha : ∀ j, IsReal (a j)) (hp : ∀ j, IsReal (p j)) (hd : IsReal d) :
    (0 : EReal) + ∑ j ∈ S, (a j * d) * p j = d * ((0 : EReal) + ∑ j ∈ S, p j * a j) := by
  obtain ⟨a', ha'⟩ : ∃ a' : ι → ℝ, ∀ j, a j = (a' j : EReal) := ⟨fun j => (ha j).choose, fun j => (ha j).choose_spec⟩
  obtain ⟨p', hp'⟩ : ∃ p' : ι → ℝ, ∀ j, p j = (p' j : EReal) := ⟨fun j => (hp j).choose, fun j => (hp j).choose_spec⟩
  obtain ⟨d', rfl⟩ := hd
  simp only [ha', hp', zero_add, ← EReal.coe_mul, ← coe_sum]
  rw [EReal.coe_eq_coe_iff, Finset.mul_sum]
  exact Finset.sum_congr rfl fun j _ => by ring

/-- The word of the float one is a real number. -/
theorem one_real : IsReal (Ideal.ofBits .f32 0x3F800000#32) := by
  rw [Ideal.ofBits_one_f32]; exact ⟨1, EReal.coe_one.symm⟩

/-- The accumulating scatter at an entry: the operand's entry plus the updates that land on it. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j ∈ Finset.univ.filter (fun j => d.resultIdx? j idx = some i), upd j := rfl

/-- An accumulating scatter of real updates into a real array is real. -/
theorem hostScatterAdd_real {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  rw [hostScatterAdd_apply]
  exact (hx i).add (IsReal.sum _ _ fun j _ => hu j)

/-- The word of the float zero is the real zero. -/
theorem zero_real : IsReal (Ideal.ofBits .f32 0x00000000#32) := by
  rw [Ideal.ofBits_zero_f32]; exact IsReal.zero

/-- The degree array is the accumulating scatter of ones into zeros at the targets. -/
theorem deg_eq (ei : IVec SEI 32) :
    deg (F := Ideal) ei = Ideal.hostScatterAdd scat1 (fun _ => Ideal.ofBits .f32 0x00000000#32) (col (tgts ei))
      (fun _ => Ideal.ofBits .f32 0x3F800000#32) := rfl

/-- A node's degree is a real number: zero plus a finite sum of ones. -/
theorem deg_real (ei : IVec SEI 32) (r : SN.Idx) : IsReal (deg (F := Ideal) ei r) := by
  rw [deg_eq]
  exact hostScatterAdd_real scat1 _ _ _ (fun _ => zero_real) (fun _ => one_real) r

/-- The reciprocal square root where positive, zero elsewhere, of a real array is real. -/
theorem normalise_real {s : Shape} (D Z : FVec Ideal s .f32) (hD : ∀ r, IsReal (D r)) (hZ : ∀ r, Z r = 0) (r : s.Idx) :
    IsReal (select (cmpf .ogt D Z) (Host.rsqrt D) Z r) := by
  show IsReal (Scalar.select (Ideal.cmp .ogt (D r) (Z r)) (Ideal.rsqrt (D r)) (Z r))
  rw [hZ r]
  obtain ⟨g, hg⟩ := hD r
  rw [hg]
  unfold Scalar.select
  have hc : Ideal.cmp .ogt (g : EReal) 0 = BitVec.ofBool (decide ((0 : EReal) < (g : EReal))) := rfl
  rw [hc]
  by_cases hpos : (0 : EReal) < (g : EReal)
  · have : BitVec.ofBool (decide ((0 : EReal) < (g : EReal))) = (1 : BitVec 1) := by simp [hpos]
    rw [if_pos this]
    exact IsReal.rsqrt_pos (by exact_mod_cast hpos)
  · have : ¬ (BitVec.ofBool (decide ((0 : EReal) < (g : EReal))) = (1 : BitVec 1)) := by simp [hpos]
    rw [if_neg this]
    exact IsReal.zero

/-- The normalisation, from the degree array. -/
theorem dinv_eq (ei : IVec SEI 32) :
    dinv (F := Ideal) ei = select (cmpf .ogt (deg (F := Ideal) ei) (fun _ => Ideal.ofBits .f32 0x00000000#32))
      (Host.rsqrt (deg (F := Ideal) ei)) (fun _ => Ideal.ofBits .f32 0x00000000#32) := rfl

/-- The normalisation is a real number at every node. -/
theorem dinv_real (ei : IVec SEI 32) (r : SN.Idx) : IsReal (dinv (F := Ideal) ei r) := by
  rw [dinv_eq]
  exact normalise_real _ _ (deg_real ei) (fun _ => Ideal.ofBits_zero_f32) r

/-- The dimension numbers of `x · W` are those of a plain rows-by-columns product. -/
theorem plainXW : Cert.LibDot.Plain dotXW where
  hrank := rfl
  hs := rfl
  hl0 := fun _ _ => rfl
  hl1 := fun j k => DotDims.lhsIdx_val_of_single (d := dotXW) (cl := 1) rfl j k
  hr0 := fun j k => DotDims.rhsIdx_val_of_single (d := dotXW) (cr := 0) rfl j k
  hr1 := fun _ _ => rfl

/-- `x · W` at an entry. -/
theorem xw_apply (x : FVec Ideal SX .f32) (W : FVec Ideal SW .f32) (r : Fin 100000) (h : Fin 16) :
    xw x W (ix2 r h) = ∑ k : Fin 512, x (ix2 r k) * W (ix2 k h) :=
  Cert.LibDot.dotGeneral_ix2 plainXW none x W r h

/-- A row of `x` against a column of `W`, for real entries, is real. -/
theorem dot_real (x : FVec Ideal SX .f32) (W : FVec Ideal SW .f32) (hx : ∀ i, IsReal (x i)) (hW : ∀ i, IsReal (W i))
    (r : Fin 100000) (h : Fin 16) : IsReal (∑ k : Fin 512, x (ix2 r k) * W (ix2 k h)) :=
  IsReal.sum _ _ fun k _ => (hx _).mul (hW _)

end Cert.Reals
-- ==== Proof.Law.lean ====
/-
  The two arrangements of the layer are one function of its arguments, for real features and weights.

  Fix a result entry (c, h). Both arrangements accumulate over the same set of update entries — the entries
  (e, h') of the position-by-column update array that the row scatter lands on (c, h): the position's target word,
  read signed, is c. At such an entry write r for the clamped, normalised source row of position e. Then
    the reference's update is  (dinv[r] · dinv[c']) · (x·W)[r, h'],  c' the clamped normalised TARGET row — which is c,
      because a target that lands on row c is a row number, untouched by normalising and clamping;
    the kernel's update is     (x·W)[r, h'] · dinv[r],   and its sum is multiplied by dinv[c] afterwards.
  With every factor real the distributive law  0 + ∑ (a·d)·p = d·(0 + ∑ p·a)  joins the two; both then add the bias.
-/
import Mathlib
import Idealize.ShloMosaic.Lib.ValueIdx
import Idealize.ShloMosaic.Lib.Pipeline.Value
import Idealize.ShloMosaic.PureOps.Ideal.Laws
import proofs.«177567_j19928648253614_2_alg».proof.Proof.Spec
import proofs.«177567_j19928648253614_2_alg».proof.Proof.IndexLaws
import proofs.«177567_j19928648253614_2_alg».proof.Proof.Reals

namespace Cert.Law

open Idealize.ShloMosaic Idealize.ShloMosaic.ValueIdx Cert.Spec Cert.LibVariance Cert.IndexLaws Cert.Reals

/-- A per-node array repeated along the 16 columns reads, at (c, h), the node's entry. -/
theorem rowBroadcast_apply (dv : FVec Ideal SN .f32) (h1 : SN.BroadcastsInDim SN1 ![0]) (h2 : SN1.BroadcastsInDim SNH ![0, 1])
    (c : Fin 100000) (h : Fin 16) :
    broadcastInDim SNH ![0, 1] h2 (broadcastInDim SN1 ![0] h1 dv) (ix2 c h) = dv (ix1 c) := by
  refine (broadcastInDim_apply _ _ _ (ix2 c h) (ix2 c 0) fun a => ?_).trans ?_
  · match a with
    | ⟨0, _⟩ => rfl
    | ⟨1, _⟩ => rfl
  · refine broadcastInDim_apply _ _ dv (ix2 c 0) (ix1 c) fun a => ?_
    match a with
    | ⟨0, _⟩ => rfl

/-- A per-position array repeated along the 16 columns reads, at (e, h), the position's entry. -/
theorem posBroadcast_apply (nv : FVec Ideal SE .f32) (h1 : SE.BroadcastsInDim SE1 ![0]) (h2 : SE1.BroadcastsInDim SEH ![0, 1])
    (e : Fin 3300000) (h : Fin 16) :
    broadcastInDim SEH ![0, 1] h2 (broadcastInDim SE1 ![0] h1 nv) (ix2 e h) = nv (ix1 e) := by
  refine (broadcastInDim_apply _ _ _ (ix2 e h) (ix2 e 0) fun a => ?_).trans ?_
  · match a with
    | ⟨0, _⟩ => rfl
    | ⟨1, _⟩ => rfl
  · refine broadcastInDim_apply _ _ nv (ix2 e 0) (ix1 e) fun a => ?_
    match a with
    | ⟨0, _⟩ => rfl

/-- The entry gather through a normalised list, at position e: the operand at the clamped normalised word. -/
theorem gat1_wrap (dv : FVec Ideal SN .f32) (v : IVec SE 32) (e : Fin 3300000) :
    Host.gather gat1 dv (col (wrap v)) (ix1 e) = dv (ix1 (clampRow (wrap v (ix1 e)))) := by
  refine (gat1_apply dv (col (wrap v)) e).trans ?_
  show dv (ix1 (clampRow (col (wrap v) (ix2 e 0)))) = _
  rw [col_apply]

/-- The row gather through a normalised list, at (e, h). -/
theorem gat2_wrap (P : FVec Ideal SNH .f32) (v : IVec SE 32) (e : Fin 3300000) (h : Fin 16) :
    Host.gather gat2 P (col (wrap v)) (ix2 e h) = P (ix2 (clampRow (wrap v (ix1 e))) h) := by
  refine (gat2_apply P (col (wrap v)) e h).trans ?_
  show P (ix2 (clampRow (col (wrap v) (ix2 e 0))) h) = _
  rw [col_apply]

/-- The host's accumulating scatter on the extended reals is the exact sum. -/
theorem scatterAdd_eq {s si su : Shape} (d : ScatterDims s si su) {w : Nat} (x : FVec Ideal s .f32) (idx : IVec si w)
    (upd : FVec Ideal su .f32) : Host.scatterAdd d x idx upd = Ideal.hostScatterAdd d x idx upd := rfl

/-- The zero array at an entry. -/
theorem zeros_apply {t : Shape} (hz : S0.BroadcastsInDim t ![]) (i : t.Idx) :
    broadcastInDim t ![] hz (constant (F := Ideal) S0 .f32 0x00000000#32) i = 0 :=
  ((broadcastInDim_apply _ hz _ i ix0 (fun a => a.elim0)).trans (constant_apply _ ix0)).trans Ideal.ofBits_zero_f32

/-- THE LAW, for any source and target lists and any real per-node factor `dv`. -/
theorem law (sv tv : IVec SE 32) (dv : FVec Ideal SN .f32) (hdv : ∀ r, IsReal (dv r))
    (x : FVec Ideal SX .f32) (W : FVec Ideal SW .f32) (hx : ∀ i, IsReal (x i)) (hW : ∀ i, IsReal (W i))
    (b : FVec Ideal SB .f32)
    (hz : S0.BroadcastsInDim SNH ![]) (h1 : SN.BroadcastsInDim SN1 ![0]) (h2 : SN1.BroadcastsInDim SNH ![0, 1])
    (h3 : SE.BroadcastsInDim SE1 ![0]) (h4 : SE1.BroadcastsInDim SEH ![0, 1]) :
    addf (Host.scatterAdd scat2 (broadcastInDim SNH ![] hz (constant S0 .f32 0x00000000#32)) (col tv)
        (mulf (broadcastInDim SEH ![0, 1] h4 (broadcastInDim SE1 ![0] h3
            (mulf (Host.gather gat1 dv (col (wrap sv))) (Host.gather gat1 dv (col (wrap tv))))))
          (Host.gather gat2 (xw x W) (col (wrap sv))))) (bias b)
    = addf (mulf (broadcastInDim SNH ![0, 1] h2 (broadcastInDim SN1 ![0] h1 dv))
        (Host.scatterAdd scat2 (broadcastInDim SNH ![] hz (constant S0 .f32 0x00000000#32)) (col tv)
          (Host.gather gat2 (fun i => (∑ k : Fin 512, x (ix2 (i 0) k) * W (ix2 k (i 1))) * dv (ix1 (i 0)))
            (col (wrap sv))))) (bias b) := by
  funext i
  obtain ⟨c, h, rfl⟩ : ∃ (c : Fin 100000) (h : Fin 16), i = ix2 c h := ⟨i 0, i 1, eq_ix2 i⟩
  refine (addf_apply _ _ (ix2 c h)).trans (Eq.trans ?_ (addf_apply _ _ (ix2 c h)).symm)
  refine congrArg (· + bias b (ix2 c h)) ?_
  refine Eq.trans ?_ (mulf_apply _ _ (ix2 c h)).symm
  rw [rowBroadcast_apply, scatterAdd_eq, scatterAdd_eq, hostScatterAdd_apply, hostScatterAdd_apply, zeros_apply]
  -- the two updates at an entry the scatter lands on (c, h)
  have hA : ∀ j : SEH.Idx, scat2.resultIdx? j (col tv) = some (ix2 c h) →
      mulf (broadcastInDim SEH ![0, 1] h4 (broadcastInDim SE1 ![0] h3
            (mulf (Host.gather gat1 dv (col (wrap sv))) (Host.gather gat1 dv (col (wrap tv))))))
          (Host.gather gat2 (xw x W) (col (wrap sv))) j
        = (dv (ix1 (clampRow (wrap sv (ix1 (j 0))))) * dv (ix1 c))
          * (∑ k : Fin 512, x (ix2 (clampRow (wrap sv (ix1 (j 0)))) k) * W (ix2 k (j 1))) := by
    intro j hj
    have hland := scat2_lands (col tv) j (ix2 c h) hj
    obtain ⟨e, h', rfl⟩ : ∃ (e : Fin 3300000) (h' : Fin 16), j = ix2 e h' := ⟨j 0, j 1, eq_ix2 j⟩
    have hland' : (tv (ix1 e)).toInt = (c.val : Int) := by
      have := hland; rw [col_apply] at this; exact this
    refine (mulf_apply _ _ (ix2 e h')).trans ?_
    rw [posBroadcast_apply, gat2_wrap, xw_apply]
    refine congrArg (· * _) ?_
    refine (mulf_apply _ _ (ix1 e)).trans ?_
    rw [gat1_wrap, gat1_wrap, clampRow_wrap_of_toInt tv e c hland']
  have hB : ∀ j : SEH.Idx,
      Host.gather gat2 (fun i => (∑ k : Fin 512, x (ix2 (i 0) k) * W (ix2 k (i 1))) * dv (ix1 (i 0))) (col (wrap sv)) j
        = (∑ k : Fin 512, x (ix2 (clampRow (wrap sv (ix1 (j 0)))) k) * W (ix2 k (j 1)))
          * dv (ix1 (clampRow (wrap sv (ix1 (j 0))))) := by
    intro j
    obtain ⟨e, h', rfl⟩ : ∃ (e : Fin 3300000) (h' : Fin 16), j = ix2 e h' := ⟨j 0, j 1, eq_ix2 j⟩
    exact gat2_wrap _ sv e h'
  refine Eq.trans (congrArg (fun z => (0 : EReal) + z) (Finset.sum_congr rfl fun j hj => hA j (Finset.mem_filter.mp hj).2)) ?_
  refine Eq.trans ?_ (congrArg (fun z => dv (ix1 c) * ((0 : EReal) + z)) (Finset.sum_congr rfl fun j _ => hB j)).symm
  refine sum_law _ _ _ _ (fun j => ?_) (fun j => ?_) ?_
  · exact hdv _
  · exact dot_real x W hx hW _ _
  · exact hdv _

/-- The reference arrangement and the kernel's arrangement agree for real features and weights. -/
theorem refOut_eq_kerOut (x : FVec Ideal SX .f32) (ei : IVec SEI 32) (W : FVec Ideal SW .f32) (b : FVec Ideal SB .f32)
    (hx : ∀ i, IsReal (x i)) (hW : ∀ i, IsReal (W i)) : refOut x ei W b = kerOut x ei W b := by
  unfold refOut kerOut kerOutOf Spec.norm scaled
  exact law (srcs ei) (tgts ei) (dinv (F := Ideal) ei) (dinv_real ei) x W hx hW b _ _ _ _ _

end Cert.Law
-- ==== Proof.lean ====
/-
  One layer of graph convolution with symmetric normalisation: the kernel against its reference, on the extended reals.

  Both programs build the same lists of sources and targets (the edges followed by a self-loop per node), the same
  degrees (an accumulating scatter of ones at the targets) and the same normalisation dinv = deg^(-1/2) where positive.
  The reference weights position e by dinv[src e] · dinv[tgt e], multiplies row src e of x · W by it, and accumulates at
  the targets. The kernel computes the table (x · W)[r, :] · dinv[r] in 25 row blocks of 4000, gathers its rows at the
  sources, accumulates at the targets, and multiplies row c of the sum by dinv[c]. A position accumulated at row c has
  target c, so its reference weight is dinv[src e] · dinv[c], and for real entries the distributive law moves dinv[c]
  out of the sum (Proof/Law.lean). Real entries are what the precondition gives for x and W (Proof/Finite.lean);
  degrees and their normalisation are real by construction (Proof/Reals.lean).

  The three frame claims: the kernel's two are the generated frame runs; the reference's is its run (Proof/RefRun.lean)
  with the result dropped. The idealization rewrote nothing, so its claim is `True`. The value claim pairs the kernel's
  run to the specification's `kerOut` (Proof/KerTable.lean for the region's table, Proof/KerHost.lean and
  Proof/KerTail.lean for the host operations around it) with the reference's run to `refOut`, equal by the law.
-/
import proofs.«177567_j19928648253614_2_alg».proof.Defs
import proofs.«177567_j19928648253614_2_alg».proof.Proof.Gen.Kernel
import proofs.«177567_j19928648253614_2_alg».proof.Proof.Gen.Kernel.Skeleton
import proofs.«177567_j19928648253614_2_alg».proof.Proof.Gen.Kernel.Launch
import proofs.«177567_j19928648253614_2_alg».proof.Proof.Gen.Kernel.Points
import proofs.«177567_j19928648253614_2_alg».proof.Proof.Gen.Kernel.Frame
import proofs.«177567_j19928648253614_2_alg».proof.Proof.Gen.KernelIdeal
import proofs.«177567_j19928648253614_2_alg».proof.Proof.Gen.KernelIdeal.Skeleton
import proofs.«177567_j19928648253614_2_alg».proof.Proof.Gen.KernelIdeal.Launch
import proofs.«177567_j19928648253614_2_alg».proof.Proof.Gen.KernelIdeal.Points
import proofs.«177567_j19928648253614_2_alg».proof.Proof.Gen.KernelIdeal.Frame
import proofs.«177567_j19928648253614_2_alg».proof.Proof.Gen.ReferenceIdeal
import proofs.«177567_j19928648253614_2_alg».proof.Proof.Gen.Pre_finite_inputs
import proofs.«177567_j19928648253614_2_alg».proof.Proof.Spec
import proofs.«177567_j19928648253614_2_alg».proof.Proof.RefRun
import proofs.«177567_j19928648253614_2_alg».proof.Proof.KerHost
import proofs.«177567_j19928648253614_2_alg».proof.Proof.KerTable
import proofs.«177567_j19928648253614_2_alg».proof.Proof.KerTail
import proofs.«177567_j19928648253614_2_alg».proof.Proof.Finite
import proofs.«177567_j19928648253614_2_alg».proof.Proof.Law
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- The two idealized programs, run from memories that agree on the arguments, end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  -- the kernel's run: the region leaves the table `scaled` (the column its steps read is the normalisation), and the
  -- later host operations are `kerOutOf` of it
  refine ⟨_, Cert.KernelIdeal.KerTail.run_of m ρ
    (fun c => Cert.Spec.scaled (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
    (fun c => Cert.KernelIdeal.KerTable.table m c (fun r => Cert.KernelIdeal.KerHost.V_dinvCol_apply m c r)), ?_⟩
  -- the reference's run, its arguments rewritten to the kernel's, and the law
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.Law.refOut_eq_kerOut _ _ _ _ (Cert.Finite.x_real m hpre c) (Cert.Finite.w_real m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
